-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S16384x4096 : Shape := ⟨2, ![16384, 4096]⟩
abbrev S4096x256 : Shape := ⟨2, ![4096, 256]⟩
abbrev S65536x2048 : Shape := ⟨2, ![65536, 2048]⟩
abbrev S2048x256 : Shape := ⟨2, ![2048, 256]⟩
abbrev S256x512 : Shape := ⟨2, ![256, 512]⟩
abbrev S16384 : Shape := ⟨1, ![16384]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S4096x256 : S_.BroadcastsInDim S4096x256 (![] : Fin 0 → Fin S4096x256.rank)
  reducesTo_S4096x256_S_d0_1 : S4096x256.ReducesTo [0, 1] S_
  bcast_S_S65536x2048 : S_.BroadcastsInDim S65536x2048 (![] : Fin 0 → Fin S65536x2048.rank)
  reducesTo_S65536x2048_S_d0_1 : S65536x2048.ReducesTo [0, 1] S_
  bcast_S_S2048x256 : S_.BroadcastsInDim S2048x256 (![] : Fin 0 → Fin S2048x256.rank)
  reducesTo_S2048x256_S_d0_1 : S2048x256.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S2048x256 .f32) (main_arg5 : FVec F S256x512 .f32) (main_arg6 : FVec F S256x512 .f32) (main_v13 : IVec S_ 1) (main_v16 : IVec S65536x2048 1) : IVec S_ 1 :=
  let main_c_5 : IVec S_ 1 := constantI S_ 1 1#1
  let main_v17 : IVec S_ 1 := (fun x v => Host.reduce IntOp.andi x v reducesTo_S65536x2048_S_d0_1 h_S_) main_v16 main_c_5
  let main_v18 : IVec S_ 1 := andi main_v13 main_v17
  let main_v19 : FVec F S2048x256 .f32 := Host.absf main_arg4
  let main_cst_6 : FVec F S_ .f32 := constant S_ .f32 0x7F800000#32
  let main_v20 : FVec F S2048x256 .f32 := broadcastInDim S2048x256 ![] bcast_S_S2048x256 main_cst_6
  let main_v21 : IVec S2048x256 1 := cmpf .olt main_v19 main_v20
  let main_c_7 : IVec S_ 1 := constantI S_ 1 1#1
  let main_v22 : IVec S_ 1 := (fun x v => Host.reduce IntOp.andi x v reducesTo_S2048x256_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  main_v33

def fn {F : FTy → Type} [FloatOps F] (main_arg0 : FVec F S100000x256 .f32) (main_arg1 : FVec F S16384x4096 .f32) (main_arg2 : FVec F S4096x256 .f32) (main_arg3 : FVec F S65536x2048 .f32) (main_arg4 : FVec F S2048x256 .f32) (main_arg5 : FVec F S256x512 .f32) (main_arg6 : FVec F S256x512 .f32) (main_arg7 : IVec S16384 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S65536x2048 .f32 := Host.absf main_arg3
  let main_cst_4 : FVec F S_ .f32 := constant S_ .f32 0x7F800000#32
  let main_v15 : FVec F S65536x2048 .f32 := broadcastInDim S65536x2048 ![] bcast_S_S65536x2048 main_cst_4
  let main_v16 : IVec S65536x2048 1 := cmpf .olt main_v14 main_v15
  fn_part1 (F := F) main_arg4 main_arg5 main_arg6 main_v13 main_v16
-- ==== Kernel.lean ====
abbrev S100000x256 : Shape := ⟨2, ![100000, 256]⟩
abbrev S16384x4096 : Shape := ⟨2, ![16384, 4096]⟩
abbrev S4096x256 : Shape := ⟨2, ![4096, 256]⟩
abbrev S65536x2048 : Shape := ⟨2, ![65536, 2048]⟩
abbrev S2048x256 : Shape := ⟨2, ![2048, 256]⟩
abbrev S256x512 : Shape := ⟨2, ![256, 512]⟩
abbrev S16384 : Shape := ⟨1, ![16384]⟩
abbrev S_ : Shape := ⟨0, ![]⟩
abbrev S16384x1 : Shape := ⟨2, ![16384, 1]⟩
abbrev S16384x256 : Shape := ⟨2, ![16384, 256]⟩
abbrev S256x256 : Shape := ⟨2, ![256, 256]⟩
abbrev S256x4096 : Shape := ⟨2, ![256, 4096]⟩
abbrev S512x2048 : Shape := ⟨2, ![512, 2048]⟩
abbrev S128x256 : Shape := ⟨2, ![128, 256]⟩
abbrev S512x256 : Shape := ⟨2, ![512, 256]⟩
abbrev S128x512 : Shape := ⟨2, ![128, 512]⟩

abbrev nBuf : Space → Nat
  | .hbm => 27
  | .vmem => 18
  | .smem => 0
  | _ => 0

abbrev bufTy : (tb : Table) → Fin (tcTables nBuf tb) → BufTy
  | .hbm, ⟨0, _⟩ => ⟨S100000x256, .f32⟩
  | .hbm, ⟨1, _⟩ => ⟨S16384x4096, .f32⟩
  | .hbm, ⟨2, _⟩ => ⟨S4096x256, .f32⟩
  | .hbm, ⟨3, _⟩ => ⟨S65536x2048, .f32⟩
  | .hbm, ⟨4, _⟩ => ⟨S2048x256, .f32⟩
  | .hbm, ⟨5, _⟩ => ⟨S256x512, .f32⟩
  | .hbm, ⟨6, _⟩ => ⟨S256x512, .f32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S16384x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S16384x256, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S16384x256, .f32⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S512x2048, .f32⟩
  | .local _ .vmem, ⟨10, _⟩ => ⟨S512x2048, .f32⟩
  | .local _ .vmem, ⟨11, _⟩ => ⟨S2048x256, .f32⟩
  | .local _ .vmem, ⟨12, _⟩ => ⟨S128x256, .f32⟩
  | .local _ .vmem, ⟨13, _⟩ => ⟨S128x256, .f32⟩
  | .local _ .vmem, ⟨14, _⟩ => ⟨S256x256, .f32⟩
  | .local _ .vmem, ⟨15, _⟩ => ⟨S256x256, .f32⟩
  | .local _ .vmem, ⟨16, _⟩ => ⟨S128x256, .f32⟩
  | .local _ .vmem, ⟨17, _⟩ => ⟨S128x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  slices_S256x512_S256x256_0_0 : S256x512.Slices ![0, 0] S256x256
  transposes_S256x256_S256x256_1_0 : S256x256.Transposes [1, 0] S256x256
  slices_S256x512_S256x256_0_256 : S256x512.Slices ![0, 256] S256x256
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S512x2048_S512x2048_0_0 : ∀ a, (![0, 0] : Fin 2 → Nat) a + S512x2048.size a ≤ S512x2048.size a
  h_S512x2048 : 0 < S512x2048.numel
  inb_S2048x256_S2048x256_0_0 : ∀ a, (![0, 0] : Fin 2 → Nat) a + S2048x256.size a ≤ S2048x256.size a
  h_S2048x256 : 0 < S2048x256.numel
  iota_S128x512_d0_w32 : S128x512.Iotas .tc 32 [0]
  iota_S128x512_d1_w32 : S128x512.Iotas .tc 32 [1]
  natLt_1_32 : 1 < 32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  gather_S100000x256_S16384x1_S16384x256_1_0_n_n_0_1_1256_wf : GatherDims.WF S100000x256 S16384x1 S16384x256 [1] [0] [] [0] [] 1 ![1, 256]
  dot_S256x4096_S4096x256_S256x256_1_0_0_1_n_n_wf : DotDims.WF S256x4096 S4096x256 S256x256 [1] [0] [0] [1] [] []
  dot_S256x256_S256x256_S256x256_1_0_0_1_n_n_wf : DotDims.WF S256x256 S256x256 S256x256 [1] [0] [0] [1] [] []
  dot_S512x2048_S2048x256_S512x256_1_0_0_1_n_n_wf : DotDims.WF S512x2048 S2048x256 S512x256 [1] [0] [0] [1] [] []
  dot_S128x512_S512x256_S128x256_1_0_0_1_n_n_wf : DotDims.WF S128x512 S512x256 S128x256 [1] [0] [0] [1] [] []
  dot_S128x256_S256x256_S128x256_1_0_0_1_n_n_wf : DotDims.WF S128x256 S256x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S16384x256.size a
  hwx0_2 : ∀ i : grid0.Coords, EltTy.bits .f32 = 32 ∨ (Rect.block (s := S16384x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S16384x256.size a
  hwx0_5 : ∀ i : grid0.Coords, EltTy.bits .f32 = 32 ∨ (Rect.block (s := S16384x256) S256x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S65536x2048.size a
  hwx1_0 : ∀ i : grid1.Coords, EltTy.bits .f32 = 32 ∨ (Rect.block (s := S65536x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S2048x256.size a
  hwx1_1 : ∀ i : grid1.Coords, EltTy.bits .f32 = 32 ∨ (Rect.block (s := S2048x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S16384x256.size a
  hwx1_2 : ∀ i : grid1.Coords, EltTy.bits .f32 = 32 ∨ (Rect.block (s := S16384x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S16384x256.size a
  hwx1_5 : ∀ i : grid1.Coords, EltTy.bits .f32 = 32 ∨ (Rect.block (s := S16384x256) S128x256.size (cc1_transform_5 i) (hinb1_5 i)).WholeWords (EltTy.packing .f32)

variable [Facts₀]

def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg3) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S2048x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S128x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S128x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x256 : Shape := ⟨2, ![100000, 256]⟩
abbrev S16384x4096 : Shape := ⟨2, ![16384, 4096]⟩
abbrev S4096x256 : Shape := ⟨2, ![4096, 256]⟩
abbrev S65536x2048 : Shape := ⟨2, ![65536, 2048]⟩
abbrev S2048x256 : Shape := ⟨2, ![2048, 256]⟩
abbrev S256x512 : Shape := ⟨2, ![256, 512]⟩
abbrev S16384 : Shape := ⟨1, ![16384]⟩
abbrev S_ : Shape := ⟨0, ![]⟩
abbrev S16384x1 : Shape := ⟨2, ![16384, 1]⟩
abbrev S16384x256 : Shape := ⟨2, ![16384, 256]⟩
abbrev S16384x512 : Shape := ⟨2, ![16384, 512]⟩
abbrev S512x256 : Shape := ⟨2, ![512, 256]⟩
abbrev S65536x256 : Shape := ⟨2, ![65536, 256]⟩
abbrev S16384x4x256 : Shape := ⟨3, ![16384, 4, 256]⟩

abbrev nBuf : Space → Nat
  | .hbm => 51
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S16384x4096, .f32⟩
  | .hbm, ⟨2, _⟩ => ⟨S4096x256, .f32⟩
  | .hbm, ⟨3, _⟩ => ⟨S65536x2048, .f32⟩
  | .hbm, ⟨4, _⟩ => ⟨S2048x256, .f32⟩
  | .hbm, ⟨5, _⟩ => ⟨S256x512, .f32⟩
  | .hbm, ⟨6, _⟩ => ⟨S256x512, .f32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S16384x256, .f32⟩
  | .hbm, ⟨17, _⟩ => ⟨S16384x256, .f32⟩
  | .hbm, ⟨18, _⟩ => ⟨S_, .f32⟩
  | .hbm, ⟨19, _⟩ => ⟨S16384x256, .f32⟩
  | .hbm, ⟨20, _⟩ => ⟨S16384x256, .f32⟩
  | .hbm, ⟨21, _⟩ => ⟨S16384x512, .f32⟩
  | .hbm, ⟨22, _⟩ => ⟨S512x256, .f32⟩
  | .hbm, ⟨23, _⟩ => ⟨S16384x256, .f32⟩
  | .hbm, ⟨24, _⟩ => ⟨S_, .f32⟩
  | .hbm, ⟨25, _⟩ => ⟨S16384x256, .f32⟩
  | .hbm, ⟨26, _⟩ => ⟨S16384x256, .i1⟩
  | .hbm, ⟨27, _⟩ => ⟨S_, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S65536x256, .f32⟩
  | .hbm, ⟨32, _⟩ => ⟨S_, .f32⟩
  | .hbm, ⟨33, _⟩ => ⟨S65536x256, .f32⟩
  | .hbm, ⟨34, _⟩ => ⟨S65536x256, .f32⟩
  | .hbm, ⟨35, _⟩ => ⟨S16384x4x256, .f32⟩
  | .hbm, ⟨36, _⟩ => ⟨S_, .f32⟩
  | .hbm, ⟨37, _⟩ => ⟨S16384x256, .f32⟩
  | .hbm, ⟨38, _⟩ => ⟨S_, .f32⟩
  | .hbm, ⟨39, _⟩ => ⟨S16384x256, .f32⟩
  | .hbm, ⟨40, _⟩ => ⟨S16384x256, .f32⟩
  | .hbm, ⟨41, _⟩ => ⟨S16384x512, .f32⟩
  | .hbm, ⟨42, _⟩ => ⟨S512x256, .f32⟩
  | .hbm, ⟨43, _⟩ => ⟨S16384x256, .f32⟩
  | .hbm, ⟨44, _⟩ => ⟨S_, .f32⟩
  | .hbm, ⟨45, _⟩ => ⟨S16384x256, .f32⟩
  | .hbm, ⟨46, _⟩ => ⟨S16384x256, .i1⟩
  | .hbm, ⟨47, _⟩ => ⟨S_, .f32⟩
  | .hbm, ⟨48, _⟩ => ⟨S16384x256, .f32⟩
  | .hbm, ⟨49, _⟩ => ⟨S16384x256, .f32⟩
  | .hbm, ⟨50, _⟩ => ⟨S16384x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x256 : S_.BroadcastsInDim S16384x256 (![] : Fin 0 → Fin S16384x256.rank)
  concatenates_S16384x256_S16384x256_S16384x512_d1 : Shape.Concatenates [S16384x256, S16384x256] S16384x512 1
  transposes_S256x512_S512x256_1_0 : S256x512.Transposes [1, 0] S512x256
  bcast_S_S65536x256 : S_.BroadcastsInDim S65536x256 (![] : Fin 0 → Fin S65536x256.rank)
  shapeCasts_S65536x256_S16384x4x256 : S65536x256.ShapeCasts S16384x4x256
  reducesTo_S16384x4x256_S16384x256_d1 : S16384x4x256.ReducesTo [1] S16384x256
  h_S_ : 0 < S_.numel
  gather_S100000x256_S16384x1_S16384x256_1_0_n_n_0_1_1256_wf : GatherDims.WF S100000x256 S16384x1 S16384x256 [1] [0] [] [0] [] 1 ![1, 256]
  dot_S16384x4096_S4096x256_S16384x256_1_0_0_1_n_n_wf : DotDims.WF S16384x4096 S4096x256 S16384x256 [1] [0] [0] [1] [] []
  dot_S16384x512_S512x256_S16384x256_1_0_0_1_n_n_wf : DotDims.WF S16384x512 S512x256 S16384x256 [1] [0] [0] [1] [] []
  dot_S65536x2048_S2048x256_S65536x256_1_0_0_1_n_n_wf : DotDims.WF S65536x2048 S2048x256 S65536x256 [1] [0] [0] [1] [] []

variable [Facts₀]

def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def dot_S16384x4096_S4096x256_S16384x256_1_0_0_1_n_n : DotDims S16384x4096 S4096x256 S16384x256 where
  lhsContracting := [1]
  rhsContracting := [0]
  lhsNonContracting := [0]
  rhsNonContracting := [1]
  lhsBatch := []
  rhsBatch := []
  wf := dot_S16384x4096_S4096x256_S16384x256_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S65536x2048_S2048x256_S65536x256_1_0_0_1_n_n : DotDims S65536x2048 S2048x256 S65536x256 where
  lhsContracting := [1]
  rhsContracting := [0]
  lhsNonContracting := [0]
  rhsNonContracting := [1]
  lhsBatch := []
  rhsBatch := []
  wf := dot_S65536x2048_S2048x256_S65536x256_1_0_0_1_n_n_wf

class Facts : Prop extends Facts₀ where

variable [Facts]
-- ==== Proof.Run.lean ====
/-
  The idealized kernel's whole run with its result named.

  The program is two kernel launches among stretches of host operations. Every weakly fair execution terminates, and
  in the final state the result buffer holds what the last boundary's contents `W4` assign to it, while the eight
  argument arrays are as launched. `W4` is a fold through the program: the launch memory, the host operations before
  the first launch, the first launch's write-backs, the host operations between the launches, the second launch's
  write-backs. The later modules open that fold one layer at a time.
-/
import proofs.«102434_j26749056319728_1_alg».proof.Proof.Gen.KernelIdeal.Frame

set_option maxRecDepth 16384

noncomputable section

namespace Cert.KernelIdeal.GnnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the last boundary's contents, and the
    arguments end as launched. -/
theorem run_named : θ_run defs (onTc (τ := τ) (main (F := F))) ⟨m, fun _ => 0, ρ⟩ (fun r => ∀ c : Dev nD,
      r.2.mem ((c.tc : Thread nD τ).loc main_v16) = W4 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v16 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.GnnRun

end
-- ==== Proof.Spec.lean ====
/-
  The embedding as functions of the argument arrays, entry by entry, on the extended reals.

  Both programs compute, for seed rows `r` and output features `j`,

      h[r, j]   = act( Σ_k feat0[r, k] · A₁[k, j] + Σ_k agg0[r, k] · B₁[k, j] )
      emb[r, j] = act( Σ_k h[r, k]     · A₂[k, j] + Σ_k mean[r, k] · B₂[k, j] )

  where `agg = (adj · feat) · ½` is the neighbour aggregate, `mean[r, k]` is the mean of the four rows `4r … 4r+3`
  of the second aggregate, `Aᵢ[k, j] = Wᵢ[j, k]` and `Bᵢ[k, j] = Wᵢ[j, 256 + k]` are the two halves of the transposed
  weights, and `act x = x` if `x ≥ 0`, else `x` times the shared slope constant. The definitions below are the pieces:
  the activation, the aggregate, the group mean, and one layer at an entry.
-/
import Idealize.ShloMosaic.PureOps.Ideal
import Idealize.ShloMosaic.PureOps.Ideal.Laws
import Idealize.ShloMosaic.Lib.ValueIdx

noncomputable section

namespace Cert.Gnn

open Idealize.ShloMosaic Idealize.ShloMosaic.ValueIdx
open scoped BigOperators

/-- A matrix of extended reals over a literal rank-2 shape. -/
abbrev Mat (a b : ℕ) : Type := (⟨2, ![a, b]⟩ : Shape).Idx → EReal

/-- A matrix given by its entries. -/
def ofEntries {a b : ℕ} (f : Fin a → Fin b → EReal) : Mat a b := fun i => f (i 0) (i 1)

theorem ofEntries_ix2 {a b : ℕ} (f : Fin a → Fin b → EReal) (p : Fin a) (q : Fin b) : ofEntries f (ix2 p q) = f p q := rfl

/-- The activation both programs apply: the value itself when it is at least zero, the value times the slope
    constant (the binary word both programs spell) otherwise. -/
def act (x : EReal) : EReal :=
  Scalar.select (FloatOps.cmpf (F := Ideal) (φ := .f32) .oge x (Ideal.ofBits .f32 0x00000000#32)) x
    (Ideal.ofBits .f32 0x3C23D70A#32 * x)

/-- The neighbour aggregate `(adj · feat) · ½` at an entry. -/
def aggAt {n L K : ℕ} (adj : Mat n L) (feat : Mat L K) (r : Fin n) (k : Fin K) : EReal :=
  (∑ l : Fin L, adj (ix2 r l) * feat (ix2 l k)) * Ideal.ofBits .f32 0x3F000000#32

/-- The neighbour aggregate as a matrix. -/
def agg {n L K : ℕ} (adj : Mat n L) (feat : Mat L K) : Mat n K := ofEntries (aggAt adj feat)

/-- The mean of the four consecutive rows `4r … 4r+3` of a matrix of `N = 4 n` rows, as the reference spells it: the
    sum started from zero, divided by four. -/
def mean4At {N n K : ℕ} (hN : N = 4 * n) (a : Mat N K) (r : Fin n) (k : Fin K) : EReal :=
  Ideal.div (Ideal.ofBits .f32 0x00000000#32 + ∑ g : Fin 4, a (ix2 ⟨4 * r.val + g.val, by have := r.isLt; have := g.isLt; omega⟩ k))
    (Ideal.ofBits .f32 0x40800000#32)

/-- The group means as a matrix. -/
def mean4 {N n K : ℕ} (hN : N = 4 * n) (a : Mat N K) : Mat n K := ofEntries (mean4At hN a)

/-- One layer at an entry: `act (Σ_k x[r, k] · A[k, j] + Σ_k y[r, k] · B[k, j])`. -/
def layerAt {n K m : ℕ} (x : Mat n K) (A : Mat K m) (y : Mat n K) (B : Mat K m) (r : Fin n) (j : Fin m) : EReal :=
  act ((∑ k : Fin K, x (ix2 r k) * A (ix2 k j)) + ∑ k : Fin K, y (ix2 r k) * B (ix2 k j))

/-- One layer as a matrix. -/
def layer {n K m : ℕ} (x : Mat n K) (A : Mat K m) (y : Mat n K) (B : Mat K m) : Mat n m := ofEntries (layerAt x A y B)

/-- The first half of the transposed weights: `A[k, j] = W[j, k]`. -/
def wLow (W : Mat 256 512) : Mat 256 256 := ofEntries fun k j => W (ix2 j ⟨k.val, by have := k.isLt; omega⟩)

/-- The second half of the transposed weights: `B[k, j] = W[j, 256 + k]`. -/
def wHigh (W : Mat 256 512) : Mat 256 256 := ofEntries fun k j => W (ix2 j ⟨256 + k.val, by have := k.isLt; omega⟩)

/-- The embedding: the second layer over the first layer's result and the group means of the second aggregate. -/
def embed (feat0 : Mat 16384 256) (adj1 : Mat 16384 4096) (feat1 : Mat 4096 256) (adj2 : Mat 65536 2048)
    (feat2 : Mat 2048 256) (W1 W2 : Mat 256 512) : Mat 16384 256 :=
  layer (layer feat0 (wLow W1) (agg adj1 feat1) (wHigh W1)) (wLow W2) (mean4 (n := 16384) (by norm_num) (agg adj2 feat2)) (wHigh W2)

end Cert.Gnn

end
-- ==== Proof.LibPlainDot.lean ====
/-
  The plain matrix product `[a, K] · [K, b]` (left operand contracted on its last axis, right operand on its first, no
  batch axes) read at an entry on the extended reals: `(x · y)[p, c] = Σₖ x[p, k] · y[k, c]`, the sum over `Fin K`.
  Stated once for any dimension record of that form, then for the two operations that compute it: a kernel's matrix
  unit product into a zero accumulator, and the host's `dot_general`.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product: contract the left operand's axis 1 with the right operand's axis 0, keep
    the left operand's axis 0 and the right operand's axis 1, no batch axes. -/
structure IsPlain {a K b : ℕ} (D : DotDims ⟨2, ![a, K]⟩ ⟨2, ![K, b]⟩ ⟨2, ![a, b]⟩) : Prop where
  lc : D.lhsContracting = [1]
  rc : D.rhsContracting = [0]
  ln : D.lhsNonContracting = [0]
  rn : D.rhsNonContracting = [1]
  lb : D.lhsBatch = []
  rb : D.rhsBatch = []

/-- The record of a plain product, its lists spelt out. -/
abbrev mk {a K b : ℕ} (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ := ⟨[1], [0], [0], [1], [], [], wf⟩

section
variable {a K b : ℕ} (wf : DotDims.WF ⟨2, ![a, K]⟩ ⟨2, ![K, b]⟩ ⟨2, ![a, b]⟩ [1] [0] [0] [1] [] [])

/-- The left operand's row is the entry's row. -/
theorem lhs_row (i : (⟨2, ![a, b]⟩ : Shape).Idx) (q : (mk wf).contr.Idx) : ((mk wf).lhsIdx i q 0).val = (i 0).val := by
  unfold DotDims.lhsIdx
  rw [dif_neg (show ¬(0 : Fin (Shape.rank ⟨2, ![a, K]⟩)) ∈ (mk wf).lhsBatch from fun h => nomatch h),
    dif_pos (show (0 : Fin (Shape.rank ⟨2, ![a, K]⟩)) ∈ (mk wf).lhsNonContracting from List.Mem.head _)]
  rfl

/-- The left operand's column is the contraction coordinate. -/
theorem lhs_col (i : (⟨2, ![a, b]⟩ : Shape).Idx) (q : (mk wf).contr.Idx) :
    ((mk wf).lhsIdx i q 1).val = (q ⟨0, Nat.one_pos⟩).val :=
  (mk wf).lhsIdx_val_of_single rfl i q

/-- The right operand's row is the contraction coordinate. -/
theorem rhs_row (i : (⟨2, ![a, b]⟩ : Shape).Idx) (q : (mk wf).contr.Idx) :
    ((mk wf).rhsIdx i q 0).val = (q ⟨0, Nat.one_pos⟩).val :=
  (mk wf).rhsIdx_val_of_single rfl i q

/-- The right operand's column is the entry's column. -/
theorem rhs_col (i : (⟨2, ![a, b]⟩ : Shape).Idx) (q : (mk wf).contr.Idx) : ((mk wf).rhsIdx i q 1).val = (i 1).val := by
  unfold DotDims.rhsIdx
  rw [dif_neg (show ¬(1 : Fin (Shape.rank ⟨2, ![K, b]⟩)) ∈ (mk wf).rhsBatch from fun h => nomatch h),
    dif_pos (show (1 : Fin (Shape.rank ⟨2, ![K, b]⟩)) ∈ (mk wf).rhsNonContracting from List.Mem.head _)]
  rfl

/-- The contraction at `(p, c)`, for the spelt-out record. -/
theorem sum_mk (x : (⟨2, ![a, K]⟩ : Shape).Idx → EReal) (y : (⟨2, ![K, b]⟩ : Shape).Idx → EReal) (p : Fin a) (c : Fin b) :
    ∑ k : (mk wf).contr.Idx, x ((mk wf).lhsIdx (ix2 p c) k) * y ((mk wf).rhsIdx (ix2 p c) k)
      = ∑ k : Fin K, x (ix2 p k) * y (ix2 k c) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p c) ((contrEquiv1 (mk wf) K rfl rfl).symm k) = ix2 p k := funext fun ax => Fin.ext (by
    match ax with
    | ⟨0, _⟩ => exact lhs_row wf _ _
    | ⟨1, _⟩ => exact (lhs_col wf _ _).trans hk)
  have er : (mk wf).rhsIdx (ix2 p c) ((contrEquiv1 (mk wf) K rfl rfl).symm k) = ix2 k c := funext fun ax => Fin.ext (by
    match ax with
    | ⟨0, _⟩ => exact (rhs_row wf _ _).trans hk
    | ⟨1, _⟩ => exact rhs_col wf _ _)
  rw [el, er]

end

/-- The contraction of a plain product at the entry `(p, c)` is the sum over the shared axis's coordinate. -/
theorem sum_plain {a K b : ℕ} (D : DotDims ⟨2, ![a, K]⟩ ⟨2, ![K, b]⟩ ⟨2, ![a, b]⟩) (h : IsPlain D)
    (x : (⟨2, ![a, K]⟩ : Shape).Idx → EReal) (y : (⟨2, ![K, b]⟩ : Shape).Idx → EReal) (p : Fin a) (c : Fin b) :
    ∑ k : D.contr.Idx, x (D.lhsIdx (ix2 p c) k) * y (D.rhsIdx (ix2 p c) k) = ∑ k : Fin K, x (ix2 p k) * y (ix2 k c) := by
  obtain ⟨lc, rc, ln, rn, lb, rb, wf⟩ := D
  obtain ⟨h1, h2, h3, h4, h5, h6⟩ := h
  dsimp only at h1 h2 h3 h4 h5 h6
  subst h1 h2 h3 h4 h5 h6
  exact sum_mk wf x y p c

/-- A kernel's matrix product into the zero accumulator, at an entry. -/
theorem matmul_zero_apply {a K b : ℕ} {φ₁ φ₂ : FTy} (D : DotDims ⟨2, ![a, K]⟩ ⟨2, ![K, b]⟩ ⟨2, ![a, b]⟩) (h : IsPlain D)
    (prec : Option ContractPrecision) (x : FVec Ideal ⟨2, ![a, K]⟩ φ₁) (y : FVec Ideal ⟨2, ![K, b]⟩ φ₂) (p : Fin a) (c : Fin b) :
    FloatOps.matmul D prec x y (constant ⟨2, ![a, b]⟩ .f32 0x00000000#32) (ix2 p c) = ∑ k : Fin K, x (ix2 p k) * y (ix2 k c) :=
  (Ideal.matmul_constant_zero_apply D prec x y (ix2 p c)).trans (sum_plain D h x y p c)

/-- The host's `dot_general`, at an entry, whatever its schedule key. -/
theorem dotGeneral_apply {a K b : ℕ} {φ₁ φ₂ : FTy} (D : DotDims ⟨2, ![a, K]⟩ ⟨2, ![K, b]⟩ ⟨2, ![a, b]⟩) (h : IsPlain D)
    (prec : Option ContractPrecision) (sched : HostSchedule) (x : FVec Ideal ⟨2, ![a, K]⟩ φ₁) (y : FVec Ideal ⟨2, ![K, b]⟩ φ₂)
    (p : Fin a) (c : Fin b) :
    FloatOps.dotGeneral D prec sched x y (ix2 p c) = ∑ k : Fin K, x (ix2 p k) * y (ix2 k c) :=
  (Ideal.dotGeneral_apply D prec sched x y (ix2 p c)).trans (sum_plain D h x y p c)

end Cert.LibPlainDot

end
-- ==== Proof.Body1.lean ====
/-
  The first launch's body at an entry.

  At a grid point the body loads a block of 256 rows of the adjacency (`x0`), the whole neighbour features (`x1`), the
  matching 256 rows of the gathered seed features (`x2`) and the two 256 × 256 weight halves (`x3`, `x4`), and stores
  `act (x2 · x3 + ((x0 · x1) · ½) · x4)`: one layer of the specification over the block. The changes of float format
  in the body are the identity on the extended reals, each matrix product into a zero accumulator is the plain sum
  over the contracted coordinate, and the casts to the same shape are the identity.
-/
import proofs.«102434_j26749056319728_1_alg».proof.Proof.Gen.KernelIdeal.Skeleton
import proofs.«102434_j26749056319728_1_alg».proof.Proof.Spec
import proofs.«102434_j26749056319728_1_alg».proof.Proof.LibPlainDot
import Idealize.ShloMosaic.Lib.Pipeline.Value
import Idealize.ShloMosaic.Lib.ValueIdx

noncomputable section

namespace Cert.KernelIdeal.Body

open Cert.KernelIdeal Cert.KernelIdeal.Gen Cert.Gnn
open Idealize.ShloMosaic Idealize.ShloMosaic.ValueIdx

/-- The value the first launch's body stores, at row `p` and column `q` of the block. -/
theorem pay1_at (x0 : Vec Ideal S256x4096 .f32) (x1 : Vec Ideal S4096x256 .f32) (x2 x3 x4 : Vec Ideal S256x256 .f32)
    (p q : Fin 256) :
    k0_pay1 (F := Ideal) x0 x1 x2 x3 x4 (ix2 p q) = layerAt x2 x3 (agg x0 x1) x4 p q := by
  unfold k0_pay1 layerAt act agg
  simp only [select_apply, cmpf_apply, mulf_apply, addf_apply, broadcast_apply, truncf_apply, shapeCast_self,
    Cert.LibPlainDot.matmul_zero_apply dot_S256x256_S256x256_S256x256_1_0_0_1_n_n ⟨rfl, rfl, rfl, rfl, rfl, rfl⟩,
    Cert.LibPlainDot.matmul_zero_apply dot_S256x4096_S4096x256_S256x256_1_0_0_1_n_n ⟨rfl, rfl, rfl, rfl, rfl, rfl⟩, ofEntries_ix2, aggAt]
  rfl

end Cert.KernelIdeal.Body

end
-- ==== Proof.Blocks1.lean ====
/-
  The first launch: from blocks to the whole array.

  The launch runs over 64 grid points. At point `t` the windows of the adjacency, of the gathered seed features and of
  the result are the row blocks `256 t … 256 t + 255`; the neighbour features and the two weight halves are whole at
  every point. Row `p` of what point `t` writes back is therefore row `256 t + p` of one layer over the whole arrays,
  and since every row of the result lies in exactly the block of the point `r / 256`, the result array after the
  launch is that layer.
  Everything here is stated for any contents `V` of the buffers when the launch is entered.
-/
import proofs.«102434_j26749056319728_1_alg».proof.Proof.Gen.KernelIdeal.Frame
import proofs.«102434_j26749056319728_1_alg».proof.Proof.Body1
import Idealize.ShloMosaic.Lib.Pipeline.Value

set_option maxRecDepth 16384

noncomputable section

namespace Cert.KernelIdeal.Blocks

open Cert.KernelIdeal Cert.KernelIdeal.Gen Cert.KernelIdeal.Body Cert.Gnn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps of the first launch, decided over its 64 points: the row-blocked windows sit at block row `t`,
    the whole windows at block `(0, 0)`. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The adjacency's block at point `t`: its row `p` is row `256 t + p` of the array. -/
theorem blk0_adj (c : Dev nD) (t : Fin cfg0.N) (p : Fin 256) (l : Fin 4096) (r : Fin 16384) (hr : r.val = 256 * t.val + p.val) :
    (iblk0 V c 0 t : Vec Ideal S256x4096 .f32) (ix2 p l) = (V c main_arg1 : S16384x4096.Idx → EReal) (ix2 r l) := by
  obtain ⟨h0, h1, -⟩ := idx0 t
  unfold iblk0
  rw [View.read_apply]
  show V c main_arg1 _ = V c main_arg1 _
  congr 1
  funext a
  apply Fin.ext
  match a with
  | ⟨0, _⟩ => show win0_0.index t 0 * 256 + 1 * p.val = r.val; rw [h0, hr]; omega
  | ⟨1, _⟩ => show win0_0.index t 1 * 4096 + 1 * l.val = l.val; rw [h1]; omega

/-- The neighbour features' block at any point is the whole array. -/
theorem blk0_feat (c : Dev nD) (t : Fin cfg0.N) (l : Fin 4096) (k : Fin 256) :
    (iblk0 V c 1 t : Vec Ideal S4096x256 .f32) (ix2 l k) = (V c main_arg2 : S4096x256.Idx → EReal) (ix2 l k) := by
  obtain ⟨-, -, h0, h1, -⟩ := idx0 t
  unfold iblk0
  rw [View.read_apply]
  show V c main_arg2 _ = V c main_arg2 _
  congr 1
  funext a
  apply Fin.ext
  match a with
  | ⟨0, _⟩ => show win0_1.index t 0 * 4096 + 1 * l.val = l.val; rw [h0]; omega
  | ⟨1, _⟩ => show win0_1.index t 1 * 256 + 1 * k.val = k.val; rw [h1]; omega

/-- The gathered seed features' block at point `t`: its row `p` is row `256 t + p` of the array. -/
theorem blk0_seed (c : Dev nD) (t : Fin cfg0.N) (p : Fin 256) (k : Fin 256) (r : Fin 16384) (hr : r.val = 256 * t.val + p.val) :
    (iblk0 V c 2 t : Vec Ideal S256x256 .f32) (ix2 p k) = (V c main_v6 : S16384x256.Idx → EReal) (ix2 r k) := by
  obtain ⟨-, -, -, -, h0, h1, -⟩ := idx0 t
  unfold iblk0
  rw [View.read_apply]
  show V c main_v6 _ = V c main_v6 _
  congr 1
  funext a
  apply Fin.ext
  match a with
  | ⟨0, _⟩ => show win0_2.index t 0 * 256 + 1 * p.val = r.val; rw [h0, hr]; omega
  | ⟨1, _⟩ => show win0_2.index t 1 * 256 + 1 * k.val = k.val; rw [h1]; omega

/-- The first weight half's block at any point is the whole array. -/
theorem blk0_wa (c : Dev nD) (t : Fin cfg0.N) (k : Fin 256) (q : Fin 256) :
    (iblk0 V c 3 t : Vec Ideal S256x256 .f32) (ix2 k q) = (V c main_v8 : S256x256.Idx → EReal) (ix2 k q) := by
  obtain ⟨-, -, -, -, -, -, h0, h1, -⟩ := idx0 t
  unfold iblk0
  rw [View.read_apply]
  show V c main_v8 _ = V c main_v8 _
  congr 1
  funext a
  apply Fin.ext
  match a with
  | ⟨0, _⟩ => show win0_3.index t 0 * 256 + 1 * k.val = k.val; rw [h0]; omega
  | ⟨1, _⟩ => show win0_3.index t 1 * 256 + 1 * q.val = q.val; rw [h1]; omega

/-- The second weight half's block at any point is the whole array. -/
theorem blk0_wb (c : Dev nD) (t : Fin cfg0.N) (k : Fin 256) (q : Fin 256) :
    (iblk0 V c 4 t : Vec Ideal S256x256 .f32) (ix2 k q) = (V c main_v10 : S256x256.Idx → EReal) (ix2 k q) := by
  obtain ⟨-, -, -, -, -, -, -, -, h0, h1, -⟩ := idx0 t
  unfold iblk0
  rw [View.read_apply]
  show V c main_v10 _ = V c main_v10 _
  congr 1
  funext a
  apply Fin.ext
  match a with
  | ⟨0, _⟩ => show win0_4.index t 0 * 256 + 1 * k.val = k.val; rw [h0]; omega
  | ⟨1, _⟩ => show win0_4.index t 1 * 256 + 1 * q.val = q.val; rw [h1]; omega

/-- The first layer over the contents the launch finds. -/
def hidden (c : Dev nD) : Mat 16384 256 :=
  layer (V c main_v6) (V c main_v8) (agg (V c main_arg1) (V c main_arg2)) (V c main_v10)

/-- What point `t` writes back is block `t` of the first layer. -/
theorem flushed0 (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  unfold out0_5
  rw [View.canon_unit_zero hz]
  simp only [View.ld_unit_zero (S := S256x4096) hz, View.ld_unit_zero (S := S4096x256) hz, View.ld_unit_zero (S := S256x256) hz]
  obtain ⟨-, -, -, -, -, -, -, -, -, -, h50, h51⟩ := idx0 t
  have hN : cfg0.N = 64 := N_0
  funext j
  obtain ⟨p, q, rfl⟩ : ∃ (p : Fin 256) (q : Fin 256), j = ix2 p q := ⟨j 0, j 1, eq_ix2 j⟩
  have ht := t.isLt
  have hp := p.isLt
  let r : Fin 16384 := ⟨256 * t.val + p.val, by omega⟩
  have hr : r.val = 256 * t.val + p.val := rfl
  refine (pay1_at _ _ _ _ _ p q).trans ?_
  rw [View.read_apply]
  have hemb : ((cfg0.win 5).blk t).view.emb (ix2 p q) = (ix2 r q : S16384x256.Idx) := by
    funext a
    apply Fin.ext
    match a with
    | ⟨0, _⟩ => show win0_5.index t 0 * 256 + 1 * p.val = r.val; rw [h50, hr]; omega
    | ⟨1, _⟩ => show win0_5.index t 1 * 256 + 1 * q.val = q.val; rw [h51]; omega
  rw [hemb]
  show _ = layerAt (V c main_v6) (V c main_v8) (agg (V c main_arg1) (V c main_arg2)) (V c main_v10) r q
  unfold layerAt agg
  simp only [ofEntries_ix2, aggAt, fun k => blk0_seed V c t p k r hr, blk0_wa V c t, blk0_wb V c t,
    fun l => blk0_adj V c t p l r hr, blk0_feat V c t]

/-- An index of the result array is in point `t`'s block iff each coordinate is in the block's range. -/
theorem mem_blk0 (t : Fin cfg0.N) (i : S16384x256.Idx) :
    i ∈ ((cfg0.win 5).blk t).view.set ↔ ∀ a : Fin 2, win0_5.index t a * S256x256.size a ≤ (i a).val
      ∧ (i a).val < win0_5.index t a * S256x256.size a + S256x256.size a := by
  show i ∈ ((View.whole main_v11).slice (win0_5.rect t)).set ↔ _
  rw [View.set_slice_whole, Rect.mem_set_unit]
  exact Iff.rfl

/-- Every index of the result array lies in the block of the point `row / 256`. -/
theorem cover0 (i : S16384x256.Idx) : ∃ t : Fin cfg0.N, (cfg0.win 5).flush t = true ∧ i ∈ ((cfg0.win 5).blk t).view.set := by
  have hi0 : (i 0).val < 16384 := (i 0).isLt
  have hi1 : (i 1).val < 256 := (i 1).isLt
  have hN : cfg0.N = 64 := N_0
  let t : Fin cfg0.N := ⟨(i 0).val / 256, by rw [hN]; omega⟩
  have htv : t.val = (i 0).val / 256 := rfl
  obtain ⟨-, -, -, -, -, -, -, -, -, -, h50, h51⟩ := idx0 t
  refine ⟨t, flush0_5 t, ?_⟩
  rw [mem_blk0]
  intro a
  match a with
  | ⟨0, _⟩ =>
    show win0_5.index t 0 * 256 ≤ (i 0).val ∧ (i 0).val < win0_5.index t 0 * 256 + 256
    rw [h50, htv]; omega
  | ⟨1, _⟩ =>
    show win0_5.index t 1 * 256 ≤ (i 1).val ∧ (i 1).val < win0_5.index t 1 * 256 + 256
    rw [h51]; omega

/-- The result array after the first launch is the first layer over the contents the launch finds. -/
theorem final0 (c : Dev nD) : (dat0 V c).arrAt 5 cfg0.N = hidden V c :=
  (dat0 V c).arrAt_eq_of_cover 5 (hidden V c) (fun t _ => flushed0 V c t) cover0

end Cert.KernelIdeal.Blocks

end
-- ==== Proof.LibRuns.lean ====
/-
  Sums over consecutive runs.

  A sum over the first `m · n` naturals is the sum, over the `m` consecutive runs of length `n`, of each run's sum:
  entry `r` lies in run `r / n` at place `r % n`, that is `r = n · a + b` for exactly one run `a < m` and place `b < n`.
  Addition here is that of any commutative monoid; on the extended reals no finiteness is needed, only that addition is
  commutative and associative.
-/
import Idealize.ShloMosaic.Lib.ValueIdx

open scoped BigOperators

namespace Cert.Lib

/-- Cutting a sum over `Fin (m * n)` into `m` runs of `n`. -/
theorem sum_fin_mul {M : Type*} [AddCommMonoid M] (m n : ℕ) (g : ℕ → M) :
    ∑ r : Fin (m * n), g r.val = ∑ a ∈ Finset.range m, ∑ b : Fin n, g (n * a + b.val) := by
  rw [← Fin.sum_univ_eq_sum_range (fun a => ∑ b : Fin n, g (n * a + b.val)) m,
    ← Equiv.sum_comp finProdFinEquiv, Fintype.sum_prod_type]
  refine Finset.sum_congr rfl fun a _ => Finset.sum_congr rfl fun b _ => ?_
  congr 1
  show b.val + n * a.val = n * a.val + b.val
  omega

/-- The same with the total spelt as one number `N = m * n`, the summand given on `Fin N` and extended by zero. -/
theorem sum_fin_eq_runs {M : Type*} [AddCommMonoid M] (N m n : ℕ) (hN : N = m * n) (f : Fin N → M) :
    ∑ r : Fin N, f r = ∑ a ∈ Finset.range m, ∑ b : Fin n, (if h : n * a + b.val < N then f ⟨n * a + b.val, h⟩ else 0) := by
  subst hN
  rw [← sum_fin_mul m n (fun r => if h : r < m * n then f ⟨r, h⟩ else 0)]
  refine Finset.sum_congr rfl fun r _ => ?_
  rw [dif_pos r.isLt]

end Cert.Lib
-- ==== Proof.Algebra.lean ====
/-
  The identities on the extended reals that join the two arrangements of the graph-convolution embedding.

  * A sum over 512 coordinates is the sum over the first 256 plus the sum over the last 256: the product of a
    row-wise concatenation `[a | b]` with a weight matrix is the sum of the two half products. Only commutativity
    and associativity of addition are used.
  * Pooling groups of four rows by a product with the matrix whose entry `(ρ, c)` is a quarter when `c / 4 = ρ`
    and zero otherwise is the mean of the group: `Σ_c pool(ρ, c) · a(c) = (a(4ρ) + a(4ρ+1) + a(4ρ+2) + a(4ρ+3)) / 4`.
    On the extended reals `0 · x = 0` for every `x`, and a product with the nonnegative real `1/4` distributes over
    any sum, so no finiteness of the entries is needed.
-/
import Idealize.ShloMosaic.PureOps.Ideal
import Idealize.ShloMosaic.PureOps.Ideal.Laws
import proofs.«102434_j26749056319728_1_alg».proof.Proof.LibRuns

noncomputable section

namespace Cert.Gnn

open Idealize.ShloMosaic
open scoped BigOperators

/-- The binary word `0x3E800000` denotes one quarter. -/
theorem quarter_eq : Ideal.ofBits .f32 0x3E800000#32 = ((0.25 : ℝ) : EReal) := by
  simp [Ideal.ofBits, Ideal.ieee, -EReal.coe_mul]; norm_num

/-- The binary word `0x40800000` denotes four. -/
theorem four_eq : Ideal.ofBits .f32 0x40800000#32 = ((4 : ℝ) : EReal) := by
  simp [Ideal.ofBits, Ideal.ieee, -EReal.coe_mul]; norm_num

/-- A sum over 512 coordinates, cut into its two halves. -/
theorem sum_halves {M : Type*} [AddCommMonoid M] (f : Fin 512 → M) :
    ∑ k : Fin 512, f k
      = ∑ k : Fin 256, f ⟨k.val, by have := k.isLt; omega⟩ + ∑ k : Fin 256, f ⟨256 + k.val, by have := k.isLt; omega⟩ :=
  Fin.sum_univ_add (a := 256) (b := 256) f

/-- A quarter of each of four terms, summed, is the sum times a quarter. -/
theorem quarter_mul_sum4 (x : Fin 4 → EReal) :
    ∑ g : Fin 4, ((0.25 : ℝ) : EReal) * x g = (∑ g : Fin 4, x g) * ((1 / 4 : ℝ) : EReal) := by
  have hq : (0 : EReal) ≤ ((0.25 : ℝ) : EReal) := by exact_mod_cast (by norm_num : (0 : ℝ) ≤ 0.25)
  have ht : ((0.25 : ℝ) : EReal) ≠ ⊤ := EReal.coe_ne_top _
  rw [Fin.sum_univ_four, Fin.sum_univ_four, ← EReal.left_distrib_of_nonneg_of_ne_top hq ht,
    ← EReal.left_distrib_of_nonneg_of_ne_top hq ht, ← EReal.left_distrib_of_nonneg_of_ne_top hq ht, mul_comm]
  congr 2; norm_num

/-- The pooling product is the group's mean: against the matrix that is a quarter where `c / 4 = ρ` and zero
    elsewhere, the sum over the 512 rows of a block keeps the four rows `4ρ … 4ρ+3`, each times a quarter. -/
theorem pool_sum (a : Fin 512 → EReal) (ρ : ℕ) (hρ : ρ < 128) :
    ∑ c : Fin 512, (if c.val / 4 = ρ then Ideal.ofBits .f32 0x3E800000#32 else Ideal.ofBits .f32 0x00000000#32) * a c
      = Ideal.div (Ideal.ofBits .f32 0x00000000#32 + ∑ g : Fin 4, a ⟨4 * ρ + g.val, by have := g.isLt; omega⟩)
          (Ideal.ofBits .f32 0x40800000#32) := by
  rw [Ideal.ofBits_zero_f32, zero_add, four_eq, Ideal.div_coe (by norm_num : (4 : ℝ) ≠ 0), quarter_eq, ← quarter_mul_sum4]
  rw [Cert.Lib.sum_fin_eq_runs 512 128 4 rfl, Finset.sum_eq_single ρ]
  · refine Finset.sum_congr rfl fun g _ => ?_
    have hg := g.isLt
    rw [dif_pos (by omega), if_pos (by show (4 * ρ + g.val) / 4 = ρ; omega)]
  · intro b hb hne
    refine Finset.sum_eq_zero fun g _ => ?_
    have hg := g.isLt
    have hb' := Finset.mem_range.mp hb
    rw [dif_pos (by omega), if_neg (by show ¬ (4 * b + g.val) / 4 = ρ; omega), zero_mul]
  · intro h; exact absurd (Finset.mem_range.mpr hρ) h

end Cert.Gnn

end
-- ==== Proof.Body2.lean ====
/-
  The second launch's body at an entry.

  At a grid point the body loads a block of 512 rows of the second adjacency (`x0`), the whole second neighbour
  features (`x1`), the matching 128 rows of the first layer's result (`x2`) and the two weight halves (`x3`, `x4`). It
  forms the aggregate `(x0 · x1) · ½` of the 512 rows, pools it by a product with the 128 × 512 matrix whose entry
  `(ρ, c)` is a quarter when `c / 4 = ρ` and zero otherwise, and stores `act (x2 · x3 + pooled · x4)`.

  The pooling matrix is computed from two index vectors: the column number is divided by four (a signed division,
  corrected towards minus infinity when the signs differ and the remainder is not zero: no correction applies to a
  column number between 0 and 511) and compared with the row number. With the pooling identity of the algebra module
  the pooled aggregate is the mean of the four rows `4ρ … 4ρ+3`, so the body is one layer of the specification over
  the block's rows and the group means of the block's aggregate.
-/
import proofs.«102434_j26749056319728_1_alg».proof.Proof.Gen.KernelIdeal.Skeleton
import proofs.«102434_j26749056319728_1_alg».proof.Proof.Spec
import proofs.«102434_j26749056319728_1_alg».proof.Proof.Algebra
import proofs.«102434_j26749056319728_1_alg».proof.Proof.LibPlainDot
import Idealize.ShloMosaic.Lib.Pipeline.Value
import Idealize.ShloMosaic.Lib.ValueIdx

noncomputable section

namespace Cert.KernelIdeal.Body

open Cert.KernelIdeal Cert.KernelIdeal.Gen Cert.Gnn
open Idealize.ShloMosaic Idealize.ShloMosaic.ValueIdx

/-- The floor division by four of a 32-bit word as the body computes it: the signed quotient, less one when the
    dividend's sign differs from the divisor's and the signed remainder is not zero. -/
def floorDiv4 (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 4#32 0#32)) (Scalar.extui (Scalar.cmpi .slt 4#32 0#32))))
      (IntOp.cmpi .ne (IntOp.remsi .vector x 4#32) 0#32))
    (IntOp.subi (IntOp.divsi .vector x 4#32) 1#32) (IntOp.divsi .vector x 4#32)

/-- On a column number below 512 it is the quotient of the natural numbers. -/
theorem floorDiv4_ofNat : ∀ c : Fin 512, floorDiv4 (BitVec.ofNat 32 c.val) = BitVec.ofNat 32 (c.val / 4) := by
  decide +kernel

/-- Two small numbers are equal as 32-bit words exactly when they are equal. -/
theorem ofNat_beq (a b : ℕ) (ha : a < 2 ^ 32) (hb : b < 2 ^ 32) :
    (BitVec.ofNat 32 a == BitVec.ofNat 32 b) = decide (a = b) := by
  rw [Bool.eq_iff_iff, beq_iff_eq, decide_eq_true_eq]
  constructor
  · intro h
    have h' := congrArg BitVec.toNat h
    rw [BitVec.toNat_ofNat, BitVec.toNat_ofNat, Nat.mod_eq_of_lt ha, Nat.mod_eq_of_lt hb] at h'
    exact h'
  · rintro rfl; rfl

/-- The pooling matrix, as the body computes it from the row and column numbers. -/
def poolMatrix : FVec Ideal S128x512 .f32 :=
  have v7 : IVec S128x512 32 := iota .tc S128x512 32 [0] iota_S128x512_d0_w32
  have v8 : IVec S128x512 32 := iota .tc S128x512 32 [1] iota_S128x512_d1_w32
  have v32 : IVec S128x512 32 := fun i => floorDiv4 (v8 i)
  have v33 : IVec S128x512 1 := cmpi .eq v32 v7
  select v33 (broadcast S128x512 (Scalar.ofBits (F := Ideal) .f32 0x3E800000#32))
    (broadcast S128x512 (Scalar.ofBits (F := Ideal) .f32 0x00000000#32))

/-- Its entry `(ρ, c)`: a quarter when `c / 4 = ρ`, zero otherwise. -/
theorem poolMatrix_at (ρ : Fin 128) (c : Fin 512) :
    poolMatrix (ix2 ρ c)
      = if c.val / 4 = ρ.val then Ideal.ofBits .f32 0x3E800000#32 else Ideal.ofBits .f32 0x00000000#32 := by
  show Scalar.select (IntOp.cmpi .eq (floorDiv4 (iota .tc S128x512 32 [1] iota_S128x512_d1_w32 (ix2 ρ c)))
      (iota .tc S128x512 32 [0] iota_S128x512_d0_w32 (ix2 ρ c))) _ _ = _
  rw [iota_single_apply, iota_single_apply]
  show Scalar.select (IntOp.cmpi .eq (floorDiv4 (BitVec.ofNat 32 c.val)) (BitVec.ofNat 32 ρ.val)) _ _ = _
  rw [floorDiv4_ofNat c]
  unfold Scalar.select IntOp.cmpi
  have hc := c.isLt
  have hρ := ρ.isLt
  rw [ofNat_beq _ _ (by omega) (by omega)]
  by_cases h : c.val / 4 = ρ.val
  · rw [if_pos h, decide_eq_true h]; rfl
  · rw [if_neg h, decide_eq_false h]; rfl

/-- The pooled aggregate the body forms, at row `ρ` and column `k`: the mean of the four rows `4ρ … 4ρ+3` of the
    block's aggregate. -/
theorem pay2_at (x0 : Vec Ideal S512x2048 .f32) (x1 : Vec Ideal S2048x256 .f32) (ρ : Fin 128) (k : Fin 256) :
    k1_pay2 (F := Ideal) x0 x1 (ix2 ρ k) = mean4At (N := 512) (n := 128) (by norm_num) (agg x0 x1) ρ k := by
  have hk : k1_pay2 (F := Ideal) x0 x1
      = matmul dot_S128x512_S512x256_S128x256_1_0_0_1_n_n none (truncf .bf16 poolMatrix bitsLt_bf16_f32)
          (truncf .bf16 (mulf (matmul dot_S512x2048_S2048x256_S512x256_1_0_0_1_n_n none (truncf .bf16 x0 bitsLt_bf16_f32)
            (truncf .bf16 x1 bitsLt_bf16_f32) (constant S512x256 .f32 0x00000000#32))
            (broadcast S512x256 (Scalar.ofBits (F := Ideal) .f32 0x3F000000#32))) bitsLt_bf16_f32)
          (constant S128x256 .f32 0x00000000#32) := rfl
  rw [hk]
  refine (Cert.LibPlainDot.matmul_zero_apply dot_S128x512_S512x256_S128x256_1_0_0_1_n_n ⟨rfl, rfl, rfl, rfl, rfl, rfl⟩ none _ _ ρ k).trans ?_
  simp only [truncf_apply, poolMatrix_at, mulf_apply, broadcast_apply,
    Cert.LibPlainDot.matmul_zero_apply dot_S512x2048_S2048x256_S512x256_1_0_0_1_n_n ⟨rfl, rfl, rfl, rfl, rfl, rfl⟩]
  unfold mean4At
  rw [← pool_sum (fun c => agg x0 x1 (ix2 c k)) ρ.val ρ.isLt]
  rfl

/-- The value the second launch's body stores, at row `ρ` and column `q` of the block. -/
theorem pay1'_at (x0 : Vec Ideal S512x2048 .f32) (x1 : Vec Ideal S2048x256 .f32) (x2 : Vec Ideal S128x256 .f32)
    (x3 x4 : Vec Ideal S256x256 .f32) (ρ : Fin 128) (q : Fin 256) :
    k1_pay1 (F := Ideal) (k1_pay2 x0 x1) x2 x3 x4 (ix2 ρ q)
      = layerAt x2 x3 (mean4 (N := 512) (n := 128) (by norm_num) (agg x0 x1)) x4 ρ q := by
  unfold k1_pay1 layerAt act mean4
  simp only [select_apply, cmpf_apply, mulf_apply, addf_apply, broadcast_apply, truncf_apply, shapeCast_self,
    Cert.LibPlainDot.matmul_zero_apply dot_S128x256_S256x256_S128x256_1_0_0_1_n_n ⟨rfl, rfl, rfl, rfl, rfl, rfl⟩, ofEntries_ix2, pay2_at]
  rfl

end Cert.KernelIdeal.Body

end
-- ==== Proof.Blocks2.lean ====
/-
  The second launch: from blocks to the whole array.

  The launch runs over 128 grid points. At point `t` the window of the second adjacency is the row block
  `512 t … 512 t + 511`, the windows of the first layer's result and of the embedding are the row blocks
  `128 t … 128 t + 127`; the second neighbour features and the two weight halves are whole at every point. Row `ρ` of
  what point `t` writes back is row `r = 128 t + ρ` of one layer over the whole arrays and the group means of the
  whole second aggregate: the four rows `4ρ … 4ρ+3` of the block's aggregate are the rows `4r … 4r+3` of the array's,
  since `512 t + 4ρ + g = 4 (128 t + ρ) + g`. Every row of the embedding lies in exactly the block of the point
  `r / 128`, so the embedding array after the launch is that layer.
  Everything here is stated for any contents `V` of the buffers when the launch is entered.
-/
import proofs.«102434_j26749056319728_1_alg».proof.Proof.Gen.KernelIdeal.Frame
import proofs.«102434_j26749056319728_1_alg».proof.Proof.Body2
import Idealize.ShloMosaic.Lib.Pipeline.Value

set_option maxRecDepth 16384

noncomputable section

namespace Cert.KernelIdeal.Blocks2

open Cert.KernelIdeal Cert.KernelIdeal.Gen Cert.KernelIdeal.Body Cert.Gnn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps of the second launch, decided over its 128 points, one pair (block row, block column) per window:
    the row-blocked windows sit at block row `t`, the whole windows at block `(0, 0)`. -/
structure Idx1 (t : Fin cfg1.N) : Prop where
  adj : win1_0.index t (0 : Fin 2) = t.val ∧ win1_0.index t (1 : Fin 2) = 0
  feat : win1_1.index t (0 : Fin 2) = 0 ∧ win1_1.index t (1 : Fin 2) = 0
  hid : win1_2.index t (0 : Fin 2) = t.val ∧ win1_2.index t (1 : Fin 2) = 0
  wa : win1_3.index t (0 : Fin 2) = 0 ∧ win1_3.index t (1 : Fin 2) = 0
  wb : win1_4.index t (0 : Fin 2) = 0 ∧ win1_4.index t (1 : Fin 2) = 0
  out : win1_5.index t (0 : Fin 2) = t.val ∧ win1_5.index t (1 : Fin 2) = 0

theorem idx1_all : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

theorem idx1 (t : Fin cfg1.N) : Idx1 t :=
  let ⟨a, b, c, d, e, f⟩ := idx1_all t
  ⟨a, b, c, d, e, f⟩

/-- The second adjacency's block at point `t`: its row `p` is row `512 t + p` of the array. -/
theorem blk1_adj (c : Dev nD) (t : Fin cfg1.N) (p : Fin 512) (l : Fin 2048) (r : Fin 65536) (hr : r.val = 512 * t.val + p.val) :
    (iblk1 V c 0 t : Vec Ideal S512x2048 .f32) (ix2 p l) = (V c main_arg3 : S65536x2048.Idx → EReal) (ix2 r l) := by
  have h0 := (idx1 t).adj.1
  have h1 := (idx1 t).adj.2
  unfold iblk1
  rw [View.read_apply]
  show V c main_arg3 _ = V c main_arg3 _
  congr 1
  funext a
  apply Fin.ext
  match a with
  | ⟨0, _⟩ => show win1_0.index t 0 * 512 + 1 * p.val = r.val; rw [h0, hr]; omega
  | ⟨1, _⟩ => show win1_0.index t 1 * 2048 + 1 * l.val = l.val; rw [h1]; omega

/-- The second neighbour features' block at any point is the whole array. -/
theorem blk1_feat (c : Dev nD) (t : Fin cfg1.N) (l : Fin 2048) (k : Fin 256) :
    (iblk1 V c 1 t : Vec Ideal S2048x256 .f32) (ix2 l k) = (V c main_arg4 : S2048x256.Idx → EReal) (ix2 l k) := by
  have h0 := (idx1 t).feat.1
  have h1 := (idx1 t).feat.2
  unfold iblk1
  rw [View.read_apply]
  show V c main_arg4 _ = V c main_arg4 _
  congr 1
  funext a
  apply Fin.ext
  match a with
  | ⟨0, _⟩ => show win1_1.index t 0 * 2048 + 1 * l.val = l.val; rw [h0]; omega
  | ⟨1, _⟩ => show win1_1.index t 1 * 256 + 1 * k.val = k.val; rw [h1]; omega

/-- The first layer's result's block at point `t`: its row `p` is row `128 t + p` of the array. -/
theorem blk1_hid (c : Dev nD) (t : Fin cfg1.N) (p : Fin 128) (l : Fin 256) (r : Fin 16384) (hr : r.val = 128 * t.val + p.val) :
    (iblk1 V c 2 t : Vec Ideal S128x256 .f32) (ix2 p l) = (V c main_v11 : S16384x256.Idx → EReal) (ix2 r l) := by
  have h0 := (idx1 t).hid.1
  have h1 := (idx1 t).hid.2
  unfold iblk1
  rw [View.read_apply]
  show V c main_v11 _ = V c main_v11 _
  congr 1
  funext a
  apply Fin.ext
  match a with
  | ⟨0, _⟩ => show win1_2.index t 0 * 128 + 1 * p.val = r.val; rw [h0, hr]; omega
  | ⟨1, _⟩ => show win1_2.index t 1 * 256 + 1 * l.val = l.val; rw [h1]; omega

/-- The first weight half's block at any point is the whole array. -/
theorem blk1_wa (c : Dev nD) (t : Fin cfg1.N) (l : Fin 256) (k : Fin 256) :
    (iblk1 V c 3 t : Vec Ideal S256x256 .f32) (ix2 l k) = (V c main_v13 : S256x256.Idx → EReal) (ix2 l k) := by
  have h0 := (idx1 t).wa.1
  have h1 := (idx1 t).wa.2
  unfold iblk1
  rw [View.read_apply]
  show V c main_v13 _ = V c main_v13 _
  congr 1
  funext a
  apply Fin.ext
  match a with
  | ⟨0, _⟩ => show win1_3.index t 0 * 256 + 1 * l.val = l.val; rw [h0]; omega
  | ⟨1, _⟩ => show win1_3.index t 1 * 256 + 1 * k.val = k.val; rw [h1]; omega

/-- The second weight half's block at any point is the whole array. -/
theorem blk1_wb (c : Dev nD) (t : Fin cfg1.N) (l : Fin 256) (k : Fin 256) :
    (iblk1 V c 4 t : Vec Ideal S256x256 .f32) (ix2 l k) = (V c main_v15 : S256x256.Idx → EReal) (ix2 l k) := by
  have h0 := (idx1 t).wb.1
  have h1 := (idx1 t).wb.2
  unfold iblk1
  rw [View.read_apply]
  show V c main_v15 _ = V c main_v15 _
  congr 1
  funext a
  apply Fin.ext
  match a with
  | ⟨0, _⟩ => show win1_4.index t 0 * 256 + 1 * l.val = l.val; rw [h0]; omega
  | ⟨1, _⟩ => show win1_4.index t 1 * 256 + 1 * k.val = k.val; rw [h1]; omega

/-- The second layer over the contents the launch finds. -/
def embedded (c : Dev nD) : Mat 16384 256 :=
  layer (V c main_v11) (V c main_v13)
    (mean4 (N := 65536) (n := 16384) (by norm_num) (agg (V c main_arg3) (V c main_arg4))) (V c main_v15)

/-- What point `t` writes back is block `t` of the second layer. -/
theorem flushed1 (c : Dev nD) (t : Fin cfg1.N) :
    (dat1 V c).flushed 5 t = ((cfg1.win 5).blk t).view.read (Elt Ideal) (embedded V c) := by
  show (cfg1.win 5).cut (grid1.coords t) ((dat1 V c).after 5 t) = _
  rw [after1_5]
  unfold out1_5
  rw [View.canon_unit_zero hz]
  simp only [View.ld_unit_zero (S := S512x2048) hz, View.ld_unit_zero (S := S2048x256) hz,
    View.ld_unit_zero (S := S128x256) hz, View.ld_unit_zero (S := S256x256) hz]
  have h50 := (idx1 t).out.1
  have h51 := (idx1 t).out.2
  have hN : cfg1.N = 128 := N_1
  funext j
  obtain ⟨p, q, rfl⟩ : ∃ (p : Fin 128) (q : Fin 256), j = ix2 p q := ⟨j 0, j 1, eq_ix2 j⟩
  have ht := t.isLt
  have hp := p.isLt
  let r : Fin 16384 := ⟨128 * t.val + p.val, by omega⟩
  have hr : r.val = 128 * t.val + p.val := rfl
  refine (pay1'_at _ _ _ _ _ p q).trans ?_
  rw [View.read_apply]
  have hemb : ((cfg1.win 5).blk t).view.emb (ix2 p q) = (ix2 r q : S16384x256.Idx) := by
    funext a
    apply Fin.ext
    match a with
    | ⟨0, _⟩ => show win1_5.index t 0 * 128 + 1 * p.val = r.val; rw [h50, hr]; omega
    | ⟨1, _⟩ => show win1_5.index t 1 * 256 + 1 * q.val = q.val; rw [h51]; omega
  rw [hemb]
  show _ = layerAt (V c main_v11) (V c main_v13)
    (mean4 (N := 65536) (n := 16384) (by norm_num) (agg (V c main_arg3) (V c main_arg4))) (V c main_v15) r q
  unfold layerAt mean4 agg
  simp only [ofEntries_ix2, mean4At, aggAt, fun k => blk1_hid V c t p k r hr, blk1_wa V c t, blk1_wb V c t, blk1_feat V c t,
    fun (g : Fin 4) l => blk1_adj V c t ⟨4 * p.val + g.val, by have := g.isLt; omega⟩ l
      ⟨4 * r.val + g.val, by have := g.isLt; omega⟩ (by show 4 * r.val + g.val = 512 * t.val + (4 * p.val + g.val); omega)]

/-- An index of the embedding array is in point `t`'s block iff each coordinate is in the block's range. -/
theorem mem_blk1 (t : Fin cfg1.N) (i : S16384x256.Idx) :
    i ∈ ((cfg1.win 5).blk t).view.set ↔ ∀ a : Fin 2, win1_5.index t a * S128x256.size a ≤ (i a).val
      ∧ (i a).val < win1_5.index t a * S128x256.size a + S128x256.size a := by
  show i ∈ ((View.whole main_v16).slice (win1_5.rect t)).set ↔ _
  rw [View.set_slice_whole, Rect.mem_set_unit]
  exact Iff.rfl

/-- Every index of the embedding array lies in the block of the point `row / 128`. -/
theorem cover1 (i : S16384x256.Idx) : ∃ t : Fin cfg1.N, (cfg1.win 5).flush t = true ∧ i ∈ ((cfg1.win 5).blk t).view.set := by
  have hi0 : (i 0).val < 16384 := (i 0).isLt
  have hi1 : (i 1).val < 256 := (i 1).isLt
  have hN : cfg1.N = 128 := N_1
  let t : Fin cfg1.N := ⟨(i 0).val / 128, by rw [hN]; omega⟩
  have htv : t.val = (i 0).val / 128 := rfl
  have h50 := (idx1 t).out.1
  have h51 := (idx1 t).out.2
  refine ⟨t, flush1_5 t, ?_⟩
  rw [mem_blk1]
  intro a
  match a with
  | ⟨0, _⟩ =>
    show win1_5.index t 0 * 128 ≤ (i 0).val ∧ (i 0).val < win1_5.index t 0 * 128 + 128
    rw [h50, htv]; omega
  | ⟨1, _⟩ =>
    show win1_5.index t 1 * 256 ≤ (i 1).val ∧ (i 1).val < win1_5.index t 1 * 256 + 256
    rw [h51]; omega

/-- The embedding array after the second launch is the second layer over the contents the launch finds. -/
theorem final1 (c : Dev nD) : (dat1 V c).arrAt 5 cfg1.N = embedded V c :=
  (dat1 V c).arrAt_eq_of_cover 5 (embedded V c) (fun t _ => flushed1 V c t) cover1

end Cert.KernelIdeal.Blocks2

end
-- ==== Proof.LibLayout.lean ====
/-
  Layout operations of small shapes read at an index, in the forms a row-wise normalisation needs: a vector made a
  column and a column spread over the columns of a matrix (the two halves of a `keepdims` reduction's broadcast), a
  row vector made a one-row matrix and spread over the rows, and a scalar spread over any shape. Each says which
  operand entry the result reads at `(p, c)`.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape (`broadcast_in_dim` with no axis) reads the scalar everywhere. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector `[b]` made the one row of `[1, b]` (`broadcast_in_dim` on axis 1) reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` spread over `a` rows (`broadcast_in_dim` on axes 0, 1) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` (`broadcast_in_dim` on axis 0) reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` spread over `b` columns (`broadcast_in_dim` on axes 0, 1) reads, at `(p, c)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.Layout.lean ====
/-
  Layout operations of the two programs, read as the specification's pieces.

  * The kernel's program cuts a weight matrix `W : [256, 512]` into its column halves and transposes each:
    `transpose (W[:, 0:256])` is `A[k, j] = W[j, k]` and `transpose (W[:, 256:512])` is `B[k, j] = W[j, 256 + k]`.
  * The reference joins two `[n, 256]` arrays along the columns and multiplies by the whole transposed weights: at an
    entry that product is the sum of the two half products, `Σ_k a[r, k] · A[k, j] + Σ_k b[r, k] · B[k, j]`, by cutting
    the sum over the 512 joined columns into its halves.
  * A scalar constant spread over an array reads the constant at every index.
-/
import proofs.«102434_j26749056319728_1_alg».proof.Proof.Spec
import proofs.«102434_j26749056319728_1_alg».proof.Proof.Algebra
import proofs.«102434_j26749056319728_1_alg».proof.Proof.LibPlainDot
import proofs.«102434_j26749056319728_1_alg».proof.Proof.LibLayout
import Idealize.ShloMosaic.Lib.Pipeline.Value
import Idealize.ShloMosaic.Lib.ValueIdx
import Idealize.ShloMosaic.Lib.ValueLayout

noncomputable section

namespace Cert.Gnn

open Idealize.ShloMosaic Idealize.ShloMosaic.ValueIdx
open scoped BigOperators

/-- The transposed first column half of the weights. -/
theorem wLow_eq (W : Mat 256 512) (h : (⟨2, ![256, 512]⟩ : Shape).Slices ![0, 0] ⟨2, ![256, 256]⟩)
    (h' : (⟨2, ![256, 256]⟩ : Shape).Transposes [1, 0] ⟨2, ![256, 256]⟩) :
    transpose ⟨2, ![256, 256]⟩ [1, 0] (extractStridedSlice ⟨2, ![256, 256]⟩ ![0, 0] W h) h' = wLow W := by
  funext i
  obtain ⟨k, j, rfl⟩ : ∃ (k j : Fin 256), i = ix2 k j := ⟨i 0, i 1, eq_ix2 i⟩
  have hk := k.isLt
  rw [transpose_ix2_apply, slice2_axis1_apply 0 W h j k ⟨k.val, by omega⟩ (by simp)]
  rfl

/-- The transposed second column half of the weights. -/
theorem wHigh_eq (W : Mat 256 512) (h : (⟨2, ![256, 512]⟩ : Shape).Slices ![0, 256] ⟨2, ![256, 256]⟩)
    (h' : (⟨2, ![256, 256]⟩ : Shape).Transposes [1, 0] ⟨2, ![256, 256]⟩) :
    transpose ⟨2, ![256, 256]⟩ [1, 0] (extractStridedSlice ⟨2, ![256, 256]⟩ ![0, 256] W h) h' = wHigh W := by
  funext i
  obtain ⟨k, j, rfl⟩ : ∃ (k j : Fin 256), i = ix2 k j := ⟨i 0, i 1, eq_ix2 i⟩
  have hk := k.isLt
  rw [transpose_ix2_apply, slice2_axis1_apply 256 W h j k ⟨256 + k.val, by omega⟩ rfl]
  rfl

/-- The product of the column-wise join `[a | b]` with the transposed weights, at an entry: the two half products. -/
theorem joinDot_at {n : ℕ} (a b : Mat n 256) (W : Mat 256 512)
    (D : DotDims ⟨2, ![n, 512]⟩ ⟨2, ![512, 256]⟩ ⟨2, ![n, 256]⟩) (hD : Cert.LibPlainDot.IsPlain D)
    (prec : Option ContractPrecision) (sched : HostSchedule)
    (hc : Shape.Concatenates [(⟨2, ![n, 256]⟩ : Shape), ⟨2, ![n, 256]⟩] ⟨2, ![n, 512]⟩ 1)
    (ht : (⟨2, ![256, 512]⟩ : Shape).Transposes [1, 0] ⟨2, ![512, 256]⟩) (r : Fin n) (j : Fin 256) :
    FloatOps.dotGeneral (F := Ideal) (φ₁ := .f32) (φ₂ := .f32) D prec sched
        (concatenate ⟨2, ![n, 512]⟩ 1 [⟨⟨2, ![n, 256]⟩, a⟩, ⟨⟨2, ![n, 256]⟩, b⟩] hc)
        (transpose ⟨2, ![512, 256]⟩ [1, 0] W ht) (ix2 r j)
      = (∑ k : Fin 256, a (ix2 r k) * wLow W (ix2 k j)) + ∑ k : Fin 256, b (ix2 r k) * wHigh W (ix2 k j) := by
  rw [Cert.LibPlainDot.dotGeneral_apply D hD, sum_halves]
  congr 1
  · refine Finset.sum_congr rfl fun k _ => ?_
    have hk := k.isLt
    rw [transpose_ix2_apply, concatenate_pair_apply_left 1 a b hc _ rfl (ix2 r k)
      (fun ax => by match ax with | ⟨0, _⟩ => rfl | ⟨1, _⟩ => rfl)]
    rfl
  · refine Finset.sum_congr rfl fun k _ => ?_
    have hk := k.isLt
    rw [transpose_ix2_apply, concatenate_pair_apply_right 1 a b hc _ rfl rfl (ix2 r k)
      (fun ax hne => by match ax with | ⟨0, _⟩ => rfl | ⟨1, _⟩ => exact absurd rfl hne)
      (by show k.val + 256 = 256 + k.val; omega)]
    rfl

end Cert.Gnn

end
-- ==== Proof.KernelValue.lean ====
/-
  The idealized kernel's result as the embedding of the argument arrays.

  The last boundary's contents at the result buffer are opened one layer at a time: the second launch leaves the
  second layer over the contents it finds; those are the arguments (no host operation and no launch writes one), the
  first launch's result, and the two transposed column halves of the second weights, computed by the host operations
  between the launches; the first launch leaves the first layer over the contents it finds: the arguments, the seed
  rows gathered by the host operations before it, and the two transposed column halves of the first weights.
-/
import proofs.«102434_j26749056319728_1_alg».proof.Proof.Run
import proofs.«102434_j26749056319728_1_alg».proof.Proof.Blocks1
import proofs.«102434_j26749056319728_1_alg».proof.Proof.Blocks2
import proofs.«102434_j26749056319728_1_alg».proof.Proof.Layout
import Idealize.ShloMosaic.Lib.StableHlo.Run

set_option maxRecDepth 16384

noncomputable section

namespace Cert.KernelIdeal.GnnValue

open Cert.KernelIdeal Cert.KernelIdeal.Gen Cert.Gnn
open Idealize.ShloMosaic Idealize.ShloMosaic.TcCoe Idealize.ShloMosaic.ValueIdx Idealize.SL.Sem

variable (m : (ℓ : Loc nD τ sig) → Buf (Elt Ideal) ℓ) (ρ : Dev nD → PrngReg)

/-- The seed rows of the feature matrix: the gather at the seed indices, a negative index first moved up by the
    number of rows (the host operations before the first launch, as one function of the two arguments). -/
def seedRows (x0 : (⟨S100000x256, .f32⟩ : BufTy).Contents (Elt Ideal)) (x7 : (⟨S16384, .i32⟩ : BufTy).Contents (Elt Ideal)) :
    (⟨S16384x256, .f32⟩ : BufTy).Contents (Elt Ideal) :=
  Host.gather gather_S100000x256_S16384x1_S16384x256_1_0_n_n_0_1_1256 x0
    (broadcastInDim S16384x1 ![0] bcast_S16384_S16384x1_0
      (select (cmpi .slt x7 (broadcastInDim S16384 ![] bcast_S_S16384 (constantI S_ 32 0#32)))
        (addi x7 (broadcastInDim S16384 ![] bcast_S_S16384 (constantI S_ 32 100000#32))) x7))

/-- A buffer no operation of a stretch writes keeps its contents through the stretch. -/
local macro "not_written" : tactic => `(tactic| (
  refine StableHlo.after_of_forall_not_mem _ _ (List.forall_iff_forall_mem.mp ?_)
  simp only [hostOps0, hostOps1, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The contents the first launch finds -/

theorem in1_adj (c : Dev nD) : V1 m ρ c main_arg1 = (m ((c : Thread nD τ).loc main_arg1)) := by
  show StableHlo.after hostOps0 (W0 m ρ c) (Proc.devRef .tc main_arg1) = _
  refine Eq.trans (b := W0 m ρ c (Proc.devRef .tc main_arg1)) ?_ rfl
  not_written

theorem in1_feat (c : Dev nD) : V1 m ρ c main_arg2 = (m ((c : Thread nD τ).loc main_arg2)) := by
  show StableHlo.after hostOps0 (W0 m ρ c) (Proc.devRef .tc main_arg2) = _
  refine Eq.trans (b := W0 m ρ c (Proc.devRef .tc main_arg2)) ?_ rfl
  not_written

theorem in1_seed (c : Dev nD) : V1 m ρ c main_v6 = seedRows (m ((c : Thread nD τ).loc main_arg0)) (m ((c : Thread nD τ).loc main_arg7)) := by
  show StableHlo.after hostOps0 (W0 m ρ c) (Proc.devRef .tc main_v6) = _
  dsimp only [hostOps0]
  after_results
  rfl

theorem in1_wa (c : Dev nD) : (V1 m ρ c main_v8 : S256x256.Idx → EReal) = wLow (m ((c : Thread nD τ).loc main_arg5)) := by
  show StableHlo.after hostOps0 (W0 m ρ c) (Proc.devRef .tc main_v8) = _
  dsimp only [hostOps0]
  after_results
  exact wLow_eq _ _ _

theorem in1_wb (c : Dev nD) : (V1 m ρ c main_v10 : S256x256.Idx → EReal) = wHigh (m ((c : Thread nD τ).loc main_arg5)) := by
  show StableHlo.after hostOps0 (W0 m ρ c) (Proc.devRef .tc main_v10) = _
  dsimp only [hostOps0]
  after_results
  exact wHigh_eq _ _ _

/-! ## The contents the second launch finds -/

/-- The second adjacency is still the argument after the first launch. -/
theorem mid_adj (c : Dev nD) : W2 m ρ c (Proc.devRef .tc main_arg3) = (m ((c : Thread nD τ).loc main_arg3)) := by
  refine (W2_of_ne m ρ c main_arg3 (by decide)).trans ?_
  show StableHlo.after hostOps0 (W0 m ρ c) (Proc.devRef .tc main_arg3) = _
  refine Eq.trans (b := W0 m ρ c (Proc.devRef .tc main_arg3)) ?_ rfl
  not_written

/-- The second neighbour features are still the argument after the first launch. -/
theorem mid_feat (c : Dev nD) : W2 m ρ c (Proc.devRef .tc main_arg4) = (m ((c : Thread nD τ).loc main_arg4)) := by
  refine (W2_of_ne m ρ c main_arg4 (by decide)).trans ?_
  show StableHlo.after hostOps0 (W0 m ρ c) (Proc.devRef .tc main_arg4) = _
  refine Eq.trans (b := W0 m ρ c (Proc.devRef .tc main_arg4)) ?_ rfl
  not_written

theorem in2_adj (c : Dev nD) : V3 m ρ c main_arg3 = (m ((c : Thread nD τ).loc main_arg3)) := by
  show StableHlo.after hostOps1 (W2 m ρ c) (Proc.devRef .tc main_arg3) = _
  refine Eq.trans (b := W2 m ρ c (Proc.devRef .tc main_arg3)) ?_ (mid_adj m ρ c)
  not_written

theorem in2_feat (c : Dev nD) : V3 m ρ c main_arg4 = (m ((c : Thread nD τ).loc main_arg4)) := by
  show StableHlo.after hostOps1 (W2 m ρ c) (Proc.devRef .tc main_arg4) = _
  refine Eq.trans (b := W2 m ρ c (Proc.devRef .tc main_arg4)) ?_ (mid_feat m ρ c)
  not_written

/-- The second weights are still the argument after the first launch. -/
theorem mid_w2 (c : Dev nD) : W2 m ρ c (Proc.devRef .tc main_arg6) = (m ((c : Thread nD τ).loc main_arg6)) := by
  refine (W2_of_ne m ρ c main_arg6 (by decide)).trans ?_
  show StableHlo.after hostOps0 (W0 m ρ c) (Proc.devRef .tc main_arg6) = _
  refine Eq.trans (b := W0 m ρ c (Proc.devRef .tc main_arg6)) ?_ rfl
  not_written

theorem in2_hid (c : Dev nD) : V3 m ρ c main_v11 = Blocks.hidden (V1 m ρ) c := by
  show StableHlo.after hostOps1 (W2 m ρ c) (Proc.devRef .tc main_v11) = _
  refine Eq.trans (b := W2 m ρ c (Proc.devRef .tc main_v11)) ?_ ((W2_arr m ρ c 5).trans (Blocks.final0 (V1 m ρ) c))
  not_written

theorem in2_wa (c : Dev nD) : (V3 m ρ c main_v13 : S256x256.Idx → EReal) = wLow (m ((c : Thread nD τ).loc main_arg6)) := by
  show StableHlo.after hostOps1 (W2 m ρ c) (Proc.devRef .tc main_v13) = _
  dsimp only [hostOps1]
  after_results
  rw [mid_w2]
  exact wLow_eq _ _ _

theorem in2_wb (c : Dev nD) : (V3 m ρ c main_v15 : S256x256.Idx → EReal) = wHigh (m ((c : Thread nD τ).loc main_arg6)) := by
  show StableHlo.after hostOps1 (W2 m ρ c) (Proc.devRef .tc main_v15) = _
  dsimp only [hostOps1]
  after_results
  rw [mid_w2]
  exact wHigh_eq _ _ _

/-! ## The result -/

/-- The result buffer's contents at the last boundary are the embedding of the arguments. -/
theorem result_eq (c : Dev nD) :
    W4 m ρ c (Proc.devRef .tc main_v16)
      = embed (seedRows (m ((c : Thread nD τ).loc main_arg0)) (m ((c : Thread nD τ).loc main_arg7))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 5).trans ((Blocks2.final1 (V3 m ρ) c).trans ?_)
  unfold Blocks2.embedded embed
  rw [in2_adj, in2_feat, in2_hid, in2_wa, in2_wb]
  unfold Blocks.hidden
  rw [in1_adj, in1_feat, in1_seed, in1_wa, in1_wb]

/-- The idealized kernel's run: the result buffer ends at the embedding of the arguments, the arguments as launched. -/
theorem run : θ_run defs (onTc (τ := τ) (main (F := Ideal))) ⟨m, fun _ => 0, ρ⟩ (fun r => ∀ c : Dev nD,
      r.2.mem ((c.tc : Thread nD τ).loc main_v16)
        = embed (seedRows (m ((c : Thread nD τ).loc main_arg0)) (m ((c : Thread nD τ).loc main_arg7))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (GnnRun.run_named m ρ)

end Cert.KernelIdeal.GnnValue

end
-- ==== Proof.RefValue.lean ====
/-
  The idealized reference's result as the embedding of the argument arrays.

  The reference's term is read stage by stage: each aggregate `(adj · feat) · ½` is the specification's aggregate (the
  host's product is the plain sum over the contracted coordinate, the constant spread over the array reads the
  constant); the reshape of the second aggregate to groups of four rows followed by the sum over the group and the
  division by four is the group mean (entry `(r, g, k)` of the reshaped array is entry `(4r + g, k)`); and each layer
  — the product of the column-wise join with the whole transposed weights, then the activation — is the
  specification's layer, by the join identity of the layout module.
-/
import proofs.«102434_j26749056319728_1_alg».proof.Proof.RefRead
import proofs.«102434_j26749056319728_1_alg».proof.Proof.Layout

noncomputable section

namespace Cert.ReferenceIdeal.GnnValue

open Cert.ReferenceIdeal Cert.ReferenceIdeal.Gen Cert.ReferenceIdeal.ReadP Cert.Gnn
open Idealize.ShloMosaic Idealize.ShloMosaic.TcCoe Idealize.ShloMosaic.ValueIdx Idealize.SL.Sem
open scoped BigOperators

/-- A scalar constant spread over a `[16384, 256]` array reads the constant at every index. -/
theorem splat_at (bits : BitVec 32) (i : S16384x256.Idx) :
    broadcastInDim S16384x256 ![] bcast_S_S16384x256 (constant (F := Ideal) S_ .f32 bits) i = Ideal.ofBits .f32 bits :=
  Cert.LibLayout.broadcastInDim_scalar_apply _ _ _

/-- The first aggregate. -/
theorem agg1_eq (x1 : (⟨S16384x4096, .f32⟩ : BufTy).Contents (Elt Ideal)) (x2 : (⟨S4096x256, .f32⟩ : BufTy).Contents (Elt Ideal)) : val_main_v9 (F := Ideal) x1 x2 = agg x1 x2 := by
  funext i
  obtain ⟨r, k, rfl⟩ : ∃ (r : Fin 16384) (k : Fin 256), i = ix2 r k := ⟨i 0, i 1, eq_ix2 i⟩
  unfold val_main_v9 val_main_v7 val_main_v8 val_main_cst agg
  simp only [mulf_apply, Host.dotGeneral, ofEntries_ix2, aggAt,
    Cert.LibPlainDot.dotGeneral_apply dot_S16384x4096_S4096x256_S16384x256_1_0_0_1_n_n ⟨rfl, rfl, rfl, rfl, rfl, rfl⟩]
  congr 1

/-- The second aggregate. -/
theorem agg2_eq (x3 : (⟨S65536x2048, .f32⟩ : BufTy).Contents (Elt Ideal)) (x4 : (⟨S2048x256, .f32⟩ : BufTy).Contents (Elt Ideal)) : val_main_v20 (F := Ideal) x3 x4 = agg x3 x4 := by
  funext i
  obtain ⟨r, k, rfl⟩ : ∃ (r : Fin 65536) (k : Fin 256), i = ix2 r k := ⟨i 0, i 1, eq_ix2 i⟩
  unfold val_main_v20 val_main_v18 val_main_v19 val_main_cst_3 agg
  simp only [mulf_apply, Host.dotGeneral, ofEntries_ix2, aggAt,
    Cert.LibPlainDot.dotGeneral_apply dot_S65536x2048_S2048x256_S65536x256_1_0_0_1_n_n ⟨rfl, rfl, rfl, rfl, rfl, rfl⟩]
  congr 1

/-- The group means of the second aggregate. -/
theorem mean_eq (x3 : (⟨S65536x2048, .f32⟩ : BufTy).Contents (Elt Ideal)) (x4 : (⟨S2048x256, .f32⟩ : BufTy).Contents (Elt Ideal)) :
    val_main_v24 (F := Ideal) x3 x4 = mean4 (N := 65536) (n := 16384) (by norm_num) (val_main_v20 (F := Ideal) x3 x4) := by
  funext i
  obtain ⟨r, k, rfl⟩ : ∃ (r : Fin 16384) (k : Fin 256), i = ix2 r k := ⟨i 0, i 1, eq_ix2 i⟩
  have hr := r.isLt
  have hk := k.isLt
  have hidx : ∀ g : Fin 4, idx_main_v21 (idx_main_v22 (ix2 r k) g)
      = (ix2 ⟨4 * r.val + g.val, by have := g.isLt; omega⟩ k : S65536x256.Idx) := fun g => by
    have hg := g.isLt
    funext a
    apply Fin.ext
    match a with
    | ⟨0, _⟩ => show ((r.val * 4 + g.val) * 256 + k.val) / 256 = 4 * r.val + g.val; omega
    | ⟨1, _⟩ => show ((r.val * 4 + g.val) * 256 + k.val) % 256 = k.val; omega
  rw [val_main_v24_apply, val_main_v22_apply, val_main_v23_apply, val_main_cst_5_apply, val_main_cst_4_apply]
  simp only [val_main_v21_apply, hidx]
  rfl

/-- One layer of the reference: the product `d` of the column-wise join with the whole transposed weights, then the
    activation (`z` the zero constant and `s` the slope constant, spread over the array). -/
theorem layer_eq (a b : Mat 16384 256) (W : Mat 256 512) (d z s : FVec Ideal S16384x256 .f32)
    (hd : d = Host.dotGeneral (F := Ideal) (φ₁ := .f32) (φ₂ := .f32) dot_S16384x512_S512x256_S16384x256_1_0_0_1_n_n none
      (concatenate S16384x512 1 [⟨S16384x256, a⟩, ⟨S16384x256, b⟩] concatenates_S16384x256_S16384x256_S16384x512_d1)
      (transpose S512x256 [1, 0] W transposes_S256x512_S512x256_1_0))
    (hz : ∀ i, z i = Ideal.ofBits .f32 0x00000000#32) (hs : ∀ i, s i = Ideal.ofBits .f32 0x3C23D70A#32) :
    select (cmpf .oge d z) d (mulf s d) = layer a (wLow W) b (wHigh W) := by
  subst hd
  funext i
  obtain ⟨r, j, rfl⟩ : ∃ (r : Fin 16384) (j : Fin 256), i = ix2 r j := ⟨i 0, i 1, eq_ix2 i⟩
  unfold layer layerAt act
  simp only [select_apply, cmpf_apply, mulf_apply, Host.dotGeneral, ofEntries_ix2, hz, hs,
    joinDot_at a b W dot_S16384x512_S512x256_S16384x256_1_0_0_1_n_n ⟨rfl, rfl, rfl, rfl, rfl, rfl⟩]

/-- The reference's result term is the embedding of the arguments, the seed rows gathered by its first operations. -/
theorem result_eq (x0 : (⟨S100000x256, .f32⟩ : BufTy).Contents (Elt Ideal)) (x1 : (⟨S16384x4096, .f32⟩ : BufTy).Contents (Elt Ideal)) (x2 : (⟨S4096x256, .f32⟩ : BufTy).Contents (Elt Ideal)) (x3 : (⟨S65536x2048, .f32⟩ : BufTy).Contents (Elt Ideal)) (x4 : (⟨S2048x256, .f32⟩ : BufTy).Contents (Elt Ideal)) (x5 : (⟨S256x512, .f32⟩ : BufTy).Contents (Elt Ideal)) (x6 : (⟨S256x512, .f32⟩ : BufTy).Contents (Elt Ideal)) (x7 : (⟨S16384, .i32⟩ : BufTy).Contents (Elt Ideal)) :
    val_main_v32 (F := Ideal) x0 x1 x2 x3 x4 x5 x6 x7
      = embed (val_main_v6 (F := Ideal) x0 x7) x1 x2 x3 x4 x5 x6 := by
  have h17 : val_main_v17 (F := Ideal) x0 x1 x2 x5 x7
      = layer (val_main_v6 (F := Ideal) x0 x7) (wLow x5) (agg x1 x2) (wHigh x5) := by
    rw [← agg1_eq]
    exact layer_eq _ _ _ _ _ _ rfl (splat_at _) (splat_at _)
  have h32 : val_main_v32 (F := Ideal) x0 x1 x2 x3 x4 x5 x6 x7
      = layer (val_main_v17 (F := Ideal) x0 x1 x2 x5 x7) (wLow x6) (val_main_v24 (F := Ideal) x3 x4) (wHigh x6) :=
    layer_eq _ _ _ _ _ _ rfl (splat_at _) (splat_at _)
  rw [h32, h17, mean_eq, agg2_eq]
  rfl

end Cert.ReferenceIdeal.GnnValue

end
-- ==== Proof.lean ====
/-
  A two-layer graph-convolution embedding: the kernel's two launches against the plain reference, on the extended reals.

  Both programs compute, for the 16384 seed rows `r` and the 256 output features `j`,

      h[r, j]   = act( Σ_k feat0[r, k] · W1[j, k] + Σ_k agg0[r, k] · W1[j, 256 + k] )
      emb[r, j] = act( Σ_k h[r, k]     · W2[j, k] + Σ_k mean[r, k] · W2[j, 256 + k] )

  with `feat0` the seed rows gathered from the feature matrix, `agg0 = (adj1 · feat1) · ½`, `mean[r, ·]` the mean of
  the rows `4r … 4r+3` of `(adj2 · feat2) · ½`, and `act` the leaky activation with the slope constant both programs
  spell by the same binary word.

  The kernel computes each layer in one launch over row blocks: it multiplies by the two transposed column halves of
  the weights and adds the two products, and in the second launch it forms the group means by a product with a
  pooling matrix (a quarter where `column / 4 = row`, zero elsewhere). The reference joins the two operands of a layer
  along the columns and multiplies once by the whole transposed weights, and forms the means by reshaping to groups
  of four, summing and dividing by four. The two are equal by: a sum over 512 joined columns is the sum of its two
  halves; `0 · x = 0` and the distribution of a product with the real `1/4` over a sum, which hold for every
  extended real, so the finiteness of the inputs is never used; and `x / 4 = x · ¼`. The changes of float format in the
  kernel are the identity on the extended reals, and no operation of the kernel is rewritten by the idealization, so
  the idealized kernel is the kernel's own text (`preserves` is `True`).

  Modules: Spec (the functions), Algebra (the identities), Body1 / Body2 (what each launch's body stores at an entry),
  Blocks1 / Blocks2 (from a launch's blocks to its whole result array), Run (the kernel's run with its result named),
  KernelValue (the kernel's result is the embedding), RefRun / RefRead (the reference's run, read stage by stage),
  Layout and RefValue (the reference's result is the embedding).
-/
import proofs.«102434_j26749056319728_1_alg».proof.Defs
import proofs.«102434_j26749056319728_1_alg».proof.Proof.Gen.Kernel
import proofs.«102434_j26749056319728_1_alg».proof.Proof.Gen.Kernel.Skeleton
import proofs.«102434_j26749056319728_1_alg».proof.Proof.Gen.Kernel.Launch
import proofs.«102434_j26749056319728_1_alg».proof.Proof.Gen.Kernel.Points
import proofs.«102434_j26749056319728_1_alg».proof.Proof.Gen.Kernel.Frame
import proofs.«102434_j26749056319728_1_alg».proof.Proof.Gen.KernelIdeal
import proofs.«102434_j26749056319728_1_alg».proof.Proof.Gen.KernelIdeal.Skeleton
import proofs.«102434_j26749056319728_1_alg».proof.Proof.Gen.KernelIdeal.Launch
import proofs.«102434_j26749056319728_1_alg».proof.Proof.Gen.KernelIdeal.Points
import proofs.«102434_j26749056319728_1_alg».proof.Proof.Gen.KernelIdeal.Frame
import proofs.«102434_j26749056319728_1_alg».proof.Proof.Gen.ReferenceIdeal
import proofs.«102434_j26749056319728_1_alg».proof.Proof.Gen.Pre_finite_inputs
import proofs.«102434_j26749056319728_1_alg».proof.Proof.KernelValue
import proofs.«102434_j26749056319728_1_alg».proof.Proof.RefValue
import Idealize.ShloMosaic.Adequacy
import Idealize.ShloMosaic.Init

noncomputable section

namespace Cert.Proof

open Idealize.ShloMosaic Idealize.ShloMosaic.TcCoe Idealize.SL.Sem

/-- The reference runs and leaves its arguments as launched: its run with the result dropped. -/
theorem frame_ref : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.ValueP.run (F := Ideal) m ρ)

/-- The seed rows are gathered by the same operations in both programs. -/
theorem seed_eq (x0 : (⟨Cert.ReferenceIdeal.S100000x256, .f32⟩ : BufTy).Contents (Elt Ideal))
    (x7 : (⟨Cert.ReferenceIdeal.S16384, .i32⟩ : BufTy).Contents (Elt Ideal)) :
    Cert.ReferenceIdeal.ReadP.val_main_v6 (F := Ideal) x0 x7 = Cert.KernelIdeal.GnnValue.seedRows x0 x7 := rfl

/-- From memories that agree on the arguments both idealized programs end with the embedding of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gnn.embed (Cert.KernelIdeal.GnnValue.seedRows (m ((c.tc : Thread Cert.KernelIdeal.nD Cert.KernelIdeal.τ).loc Cert.KernelIdeal.main_arg0)) (m ((c.tc : Thread Cert.KernelIdeal.nD Cert.KernelIdeal.τ).loc Cert.KernelIdeal.main_arg7)))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.KernelIdeal.GnnValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  rw [Cert.ReferenceIdeal.ReadP.val_main_v32_eq, Cert.ReferenceIdeal.GnnValue.result_eq, seed_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ref,
    trivial,
    algebraic⟩

end Cert.Proof

end
